-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S50x32x256 : Shape := ⟨3, ![50, 32, 256]⟩
abbrev S50x1x32 : Shape := ⟨3, ![50, 1, 32]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S50x32x256 : S_.BroadcastsInDim S50x32x256 (![] : Fin 0 → Fin S50x32x256.rank)
  reducesTo_S50x32x256_S_d0_1_2 : S50x32x256.ReducesTo [0, 1, 2] S_
  bcast_S_S50x1x32 : S_.BroadcastsInDim S50x1x32 (![] : Fin 0 → Fin S50x1x32.rank)
  reducesTo_S50x1x32_S_d0_1_2 : S50x1x32.ReducesTo [0, 1, 2] S_

variable [Facts]

def fn {F : FTy → Type} [FloatOps F] (main_arg0 : FVec F S8192x256 .f32) (main_arg1 : FVec F S50x32x256 .f32) (main_arg2 : FVec F S50x1x32 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S50x32x256 .f32 := Host.absf main_arg1
  let main_cst_0 : FVec F S_ .f32 := constant S_ .f32 0x7F800000#32
  let main_v5 : FVec F S50x32x256 .f32 := broadcastInDim S50x32x256 ![] bcast_S_S50x32x256 main_cst_0
  let main_v6 : IVec S50x32x256 1 := cmpf .olt main_v4 main_v5
  let main_c_1 : IVec S_ 1 := constantI S_ 1 1#1
  let main_v7 : IVec S_ 1 := (fun x v => Host.reduce IntOp.andi x v reducesTo_S50x32x256_S_d0_1_2 h_S_) main_v6 main_c_1
  let main_v8 : IVec S_ 1 := andi main_v3 main_v7
  let main_v9 : FVec F S50x1x32 .f32 := Host.absf main_arg2
  let main_cst_2 : FVec F S_ .f32 := constant S_ .f32 0x7F800000#32
  let main_v10 : FVec F S50x1x32 .f32 := broadcastInDim S50x1x32 ![] bcast_S_S50x1x32 main_cst_2
  let main_v11 : IVec S50x1x32 1 := cmpf .olt main_v9 main_v10
  let main_c_3 : IVec S_ 1 := constantI S_ 1 1#1
  let main_v12 : IVec S_ 1 := (fun x v => Host.reduce IntOp.andi x v reducesTo_S50x1x32_S_d0_1_2 h_S_) main_v11 main_c_3
  let main_v13 : IVec S_ 1 := andi main_v8 main_v12
  main_v13
-- ==== Kernel.lean ====
abbrev S8192x256 : Shape := ⟨2, ![8192, 256]⟩
abbrev S50x32x256 : Shape := ⟨3, ![50, 32, 256]⟩
abbrev S50x1x32 : Shape := ⟨3, ![50, 1, 32]⟩
abbrev S_ : Shape := ⟨0, ![]⟩
abbrev S50x256 : Shape := ⟨2, ![50, 256]⟩
abbrev S50 : Shape := ⟨1, ![50]⟩
abbrev S50x1 : Shape := ⟨2, ![50, 1]⟩
abbrev S50x1x256 : Shape := ⟨3, ![50, 1, 256]⟩
abbrev S256x50x32 : Shape := ⟨3, ![256, 50, 32]⟩
abbrev S256x1600 : Shape := ⟨2, ![256, 1600]⟩
abbrev S1x1600 : Shape := ⟨2, ![1, 1600]⟩
abbrev S8192x1600 : Shape := ⟨2, ![8192, 1600]⟩
abbrev S1024x256 : Shape := ⟨2, ![1024, 256]⟩
abbrev S1024x1600 : Shape := ⟨2, ![1024, 1600]⟩
abbrev S8192x50x32 : Shape := ⟨3, ![8192, 50, 32]⟩

abbrev nBuf : Space → Nat
  | .hbm => 37
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S50x32x256, .f32⟩
  | .hbm, ⟨2, _⟩ => ⟨S50x1x32, .f32⟩
  | .hbm, ⟨3, _⟩ => ⟨S50x32x256, .f32⟩
  | .hbm, ⟨4, _⟩ => ⟨S_, .f32⟩
  | .hbm, ⟨5, _⟩ => ⟨S50x256, .f32⟩
  | .hbm, ⟨6, _⟩ => ⟨S_, .f32⟩
  | .hbm, ⟨7, _⟩ => ⟨S50x256, .f32⟩
  | .hbm, ⟨8, _⟩ => ⟨S50x256, .f32⟩
  | .hbm, ⟨9, _⟩ => ⟨S_, .f32⟩
  | .hbm, ⟨10, _⟩ => ⟨S50, .f32⟩
  | .hbm, ⟨11, _⟩ => ⟨S_, .f32⟩
  | .hbm, ⟨12, _⟩ => ⟨S50, .f32⟩
  | .hbm, ⟨13, _⟩ => ⟨S50, .f32⟩
  | .hbm, ⟨14, _⟩ => ⟨S50x1, .f32⟩
  | .hbm, ⟨15, _⟩ => ⟨S50x256, .f32⟩
  | .hbm, ⟨16, _⟩ => ⟨S50x256, .f32⟩
  | .hbm, ⟨17, _⟩ => ⟨S50x256, .f32⟩
  | .hbm, ⟨18, _⟩ => ⟨S_, .f32⟩
  | .hbm, ⟨19, _⟩ => ⟨S50, .f32⟩
  | .hbm, ⟨20, _⟩ => ⟨S50x1, .f32⟩
  | .hbm, ⟨21, _⟩ => ⟨S50x256, .f32⟩
  | .hbm, ⟨22, _⟩ => ⟨S50x256, .f32⟩
  | .hbm, ⟨23, _⟩ => ⟨S_, .f32⟩
  | .hbm, ⟨24, _⟩ => ⟨S50, .f32⟩
  | .hbm, ⟨25, _⟩ => ⟨S50x1, .f32⟩
  | .hbm, ⟨26, _⟩ => ⟨S50x256, .f32⟩
  | .hbm, ⟨27, _⟩ => ⟨S50x256, .f32⟩
  | .hbm, ⟨28, _⟩ => ⟨S50x1x256, .f32⟩
  | .hbm, ⟨29, _⟩ => ⟨S50x32x256, .f32⟩
  | .hbm, ⟨30, _⟩ => ⟨S50x32x256, .f32⟩
  | .hbm, ⟨31, _⟩ => ⟨S256x50x32, .f32⟩
  | .hbm, ⟨32, _⟩ => ⟨S256x1600, .f32⟩
  | .hbm, ⟨33, _⟩ => ⟨S1x1600, .f32⟩
  | .hbm, ⟨34, _⟩ => ⟨S256x1600, .bf16⟩
  | .hbm, ⟨35, _⟩ => ⟨S8192x1600, .f32⟩
  | .hbm, ⟨36, _⟩ => ⟨S8192x50x32, .f32⟩
  | .local _ .vmem, ⟨0, _⟩ => ⟨S1024x256, .f32⟩
  | .local _ .vmem, ⟨1, _⟩ => ⟨S1024x256, .f32⟩
  | .local _ .vmem, ⟨2, _⟩ => ⟨S256x1600, .bf16⟩
  | .local _ .vmem, ⟨3, _⟩ => ⟨S1x1600, .f32⟩
  | .local _ .vmem, ⟨4, _⟩ => ⟨S1024x1600, .f32⟩
  | .local _ .vmem, ⟨5, _⟩ => ⟨S1024x1600, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1600 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S50x32x256_S50x256_d1 : S50x32x256.ReducesTo [1] S50x256
  h_S_ : 0 < S_.numel
  bcast_S_S50x256 : S_.BroadcastsInDim S50x256 (![] : Fin 0 → Fin S50x256.rank)
  reducesTo_S50x256_S50_d1 : S50x256.ReducesTo [1] S50
  bcast_S_S50 : S_.BroadcastsInDim S50 (![] : Fin 0 → Fin S50.rank)
  bcast_S50_S50x1_0 : S50.BroadcastsInDim S50x1 (![0] : Fin 1 → Fin S50x1.rank)
  bcast_S50x1_S50x256_0_1 : S50x1.BroadcastsInDim S50x256 (![0, 1] : Fin 2 → Fin S50x256.rank)
  bcast_S50x256_S50x1x256_0_2 : S50x256.BroadcastsInDim S50x1x256 (![0, 2] : Fin 2 → Fin S50x1x256.rank)
  bcast_S50x1x256_S50x32x256_0_1_2 : S50x1x256.BroadcastsInDim S50x32x256 (![0, 1, 2] : Fin 3 → Fin S50x32x256.rank)
  transposes_S50x32x256_S256x50x32_2_0_1 : S50x32x256.Transposes [2, 0, 1] S256x50x32
  shapeCasts_S256x50x32_S256x1600 : S256x50x32.ShapeCasts S256x1600
  shapeCasts_S50x1x32_S1x1600 : S50x1x32.ShapeCasts S1x1600
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S256x1600_S256x1600_0_0 : ∀ a, (![0, 0] : Fin 2 → Nat) a + S256x1600.size a ≤ S256x1600.size a
  h_S256x1600 : 0 < S256x1600.numel
  shapeCasts_S256x1600_S256x1600 : S256x1600.ShapeCasts S256x1600
  inb_S1x1600_S1x1600_0_0 : ∀ a, (![0, 0] : Fin 2 → Nat) a + S1x1600.size a ≤ S1x1600.size a
  h_S1x1600 : 0 < S1x1600.numel
  shapeCasts_S1x1600_S1x1600 : S1x1600.ShapeCasts S1x1600
  broadcasts_S1x1600_S1024x1600 : S1x1600.Broadcasts S1024x1600
  inb_S1024x1600_S1024x1600_0_0 : ∀ a, (![0, 0] : Fin 2 → Nat) a + S1024x1600.size a ≤ S1024x1600.size a
  h_S1024x1600 : 0 < S1024x1600.numel
  shapeCasts_S8192x1600_S8192x50x32 : S8192x1600.ShapeCasts S8192x50x32
  dot_S1024x256_S256x1600_S1024x1600_1_0_0_1_n_n_wf : DotDims.WF S1024x256 S256x1600 S1024x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1600.size a ≤ S256x1600.size a
  hwx0_1 : ∀ i : grid0.Coords, EltTy.bits .bf16 = 32 ∨ (Rect.block (s := S256x1600) S256x1600.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1600.size a ≤ S1x1600.size a
  hwx0_2 : ∀ i : grid0.Coords, EltTy.bits .f32 = 32 ∨ (Rect.block (s := S1x1600) S1x1600.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1600.size a ≤ S8192x1600.size a
  hwx0_3 : ∀ i : grid0.Coords, EltTy.bits .f32 = 32 ∨ (Rect.block (s := S8192x1600) S1024x1600.size (cc0_transform_3 i) (hinb0_3 i)).WholeWords (EltTy.packing .f32)

variable [Facts₀]

def dot_S1024x256_S256x1600_S1024x1600_1_0_0_1_n_n : DotDims S1024x256 S256x1600 S1024x1600 where
  lhsContracting := [1]
  rhsContracting := [0]
  lhsNonContracting := [0]
  rhsNonContracting := [1]
  lhsBatch := []
  rhsBatch := []
  wf := dot_S1024x256_S256x1600_S1024x1600_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S256x1600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1024x1600.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S50x32x256 : Shape := ⟨3, ![50, 32, 256]⟩
abbrev S50x1x32 : Shape := ⟨3, ![50, 1, 32]⟩
abbrev S_ : Shape := ⟨0, ![]⟩
abbrev S50x256 : Shape := ⟨2, ![50, 256]⟩
abbrev S50 : Shape := ⟨1, ![50]⟩
abbrev S50x1 : Shape := ⟨2, ![50, 1]⟩
abbrev S1x8192x256 : Shape := ⟨3, ![1, 8192, 256]⟩
abbrev S50x1x256 : Shape := ⟨3, ![50, 1, 256]⟩
abbrev S50x8192x256 : Shape := ⟨3, ![50, 8192, 256]⟩
abbrev S50x8192x32 : Shape := ⟨3, ![50, 8192, 32]⟩
abbrev S8192x50x32 : Shape := ⟨3, ![8192, 50, 32]⟩

abbrev nBuf : Space → Nat
  | .hbm => 37
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S50x32x256, .f32⟩
  | .hbm, ⟨2, _⟩ => ⟨S50x1x32, .f32⟩
  | .hbm, ⟨3, _⟩ => ⟨S50x32x256, .f32⟩
  | .hbm, ⟨4, _⟩ => ⟨S_, .f32⟩
  | .hbm, ⟨5, _⟩ => ⟨S50x256, .f32⟩
  | .hbm, ⟨6, _⟩ => ⟨S_, .f32⟩
  | .hbm, ⟨7, _⟩ => ⟨S50x256, .f32⟩
  | .hbm, ⟨8, _⟩ => ⟨S50x256, .f32⟩
  | .hbm, ⟨9, _⟩ => ⟨S_, .f32⟩
  | .hbm, ⟨10, _⟩ => ⟨S50, .f32⟩
  | .hbm, ⟨11, _⟩ => ⟨S_, .f32⟩
  | .hbm, ⟨12, _⟩ => ⟨S50, .f32⟩
  | .hbm, ⟨13, _⟩ => ⟨S50, .f32⟩
  | .hbm, ⟨14, _⟩ => ⟨S50x1, .f32⟩
  | .hbm, ⟨15, _⟩ => ⟨S50x256, .f32⟩
  | .hbm, ⟨16, _⟩ => ⟨S50x256, .f32⟩
  | .hbm, ⟨17, _⟩ => ⟨S50x256, .f32⟩
  | .hbm, ⟨18, _⟩ => ⟨S_, .f32⟩
  | .hbm, ⟨19, _⟩ => ⟨S50, .f32⟩
  | .hbm, ⟨20, _⟩ => ⟨S50x1, .f32⟩
  | .hbm, ⟨21, _⟩ => ⟨S50x256, .f32⟩
  | .hbm, ⟨22, _⟩ => ⟨S50x256, .f32⟩
  | .hbm, ⟨23, _⟩ => ⟨S_, .f32⟩
  | .hbm, ⟨24, _⟩ => ⟨S50, .f32⟩
  | .hbm, ⟨25, _⟩ => ⟨S50x1, .f32⟩
  | .hbm, ⟨26, _⟩ => ⟨S50x256, .f32⟩
  | .hbm, ⟨27, _⟩ => ⟨S50x256, .f32⟩
  | .hbm, ⟨28, _⟩ => ⟨S1x8192x256, .f32⟩
  | .hbm, ⟨29, _⟩ => ⟨S50x1x256, .f32⟩
  | .hbm, ⟨30, _⟩ => ⟨S50x8192x256, .f32⟩
  | .hbm, ⟨31, _⟩ => ⟨S50x8192x256, .f32⟩
  | .hbm, ⟨32, _⟩ => ⟨S50x8192x256, .f32⟩
  | .hbm, ⟨33, _⟩ => ⟨S50x8192x32, .f32⟩
  | .hbm, ⟨34, _⟩ => ⟨S50x8192x32, .f32⟩
  | .hbm, ⟨35, _⟩ => ⟨S50x8192x32, .f32⟩
  | .hbm, ⟨36, _⟩ => ⟨S8192x50x32, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  reducesTo_S50x32x256_S50x256_d1 : S50x32x256.ReducesTo [1] S50x256
  h_S_ : 0 < S_.numel
  bcast_S_S50x256 : S_.BroadcastsInDim S50x256 (![] : Fin 0 → Fin S50x256.rank)
  reducesTo_S50x256_S50_d1 : S50x256.ReducesTo [1] S50
  bcast_S_S50 : S_.BroadcastsInDim S50 (![] : Fin 0 → Fin S50.rank)
  bcast_S50_S50x1_0 : S50.BroadcastsInDim S50x1 (![0] : Fin 1 → Fin S50x1.rank)
  bcast_S50x1_S50x256_0_1 : S50x1.BroadcastsInDim S50x256 (![0, 1] : Fin 2 → Fin S50x256.rank)
  bcast_S8192x256_S1x8192x256_1_2 : S8192x256.BroadcastsInDim S1x8192x256 (![1, 2] : Fin 2 → Fin S1x8192x256.rank)
  bcast_S50x256_S50x1x256_0_2 : S50x256.BroadcastsInDim S50x1x256 (![0, 2] : Fin 2 → Fin S50x1x256.rank)
  bcast_S1x8192x256_S50x8192x256_0_1_2 : S1x8192x256.BroadcastsInDim S50x8192x256 (![0, 1, 2] : Fin 3 → Fin S50x8192x256.rank)
  bcast_S50x1x256_S50x8192x256_0_1_2 : S50x1x256.BroadcastsInDim S50x8192x256 (![0, 1, 2] : Fin 3 → Fin S50x8192x256.rank)
  bcast_S50x1x32_S50x8192x32_0_1_2 : S50x1x32.BroadcastsInDim S50x8192x32 (![0, 1, 2] : Fin 3 → Fin S50x8192x32.rank)
  transposes_S50x8192x32_S8192x50x32_1_0_2 : S50x8192x32.Transposes [1, 0, 2] S8192x50x32
  dot_S50x8192x256_S50x32x256_S50x8192x32_2_2_1_1_0_0_wf : DotDims.WF S50x8192x256 S50x32x256 S50x8192x32 [2] [2] [1] [1] [0] [0]

variable [Facts₀]

def dot_S50x8192x256_S50x32x256_S50x8192x32_2_2_1_1_0_0 : DotDims S50x8192x256 S50x32x256 S50x8192x32 where
  lhsContracting := [2]
  rhsContracting := [2]
  lhsNonContracting := [1]
  rhsNonContracting := [1]
  lhsBatch := [0]
  rhsBatch := [0]
  wf := dot_S50x8192x256_S50x32x256_S50x8192x32_2_2_1_1_0_0_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«104529_j24635932410290_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowAffine.lean ====
/-
  A linear layer with a bias row, on the extended reals, as a function of whole arrays.

  `rowAffine X W b` takes an r×k array X, a k×n array W and a 1×n row b to the r×n array whose entry (p, q) is the sum
  over c of X(p, c) · W(c, q), plus b(0, q). An entry depends on one row of X, so the layer applied to a block of rows of
  X gives the same rows of the layer applied to X: `rowAffine_entry`, with the index inside the block and the index of
  the whole array as variables. A kernel body's spelling of the layer — the left operand narrowed to a shorter float
  format, the right operand and the bias row re-shaped in place, the product accumulated into zeros, the row broadcast
  down the rows and added — is this function (`body_rowAffine`): on the extended reals a change of float format is the
  identity and a product into zeros is the plain sum. Nothing is distributed or cancelled, so no finiteness is asked.
  Nothing here mentions a program.
-/
import Idealize.ShloMosaic.PureOps.Ideal.Laws
import Idealize.ShloMosaic.Lib.ValueIdx
import Idealize.ShloMosaic.Lib.Pipeline.Value
import proofs.«104529_j24635932410290_2_alg».proof.Proof.LibBlockReads
import proofs.«104529_j24635932410290_2_alg».proof.Proof.LibMatProd

open scoped BigOperators

noncomputable section

namespace Cert.Lib.RowAffine

open Idealize.ShloMosaic Idealize.ShloMosaic.ValueIdx Cert.Lib.MatProd

variable {r r' k n : Nat}

/-- Entry (p, q) is the sum over c of X(p, c) · W(c, q), plus b(0, q). -/
def rowAffine (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  fun i => matProd X W i + b (ix2 (0 : Fin 1) (⟨(i 1).val, idx2_lt1 i⟩ : Fin n))

theorem rowAffine_apply (X : (⟨2, ![r, k]⟩ : Shape).Idx → EReal) (W : (⟨2, ![k, n]⟩ : Shape).Idx → EReal)
    (b : (⟨2, ![1, n]⟩ : Shape).Idx → EReal) (p : Fin r) (q : Fin n) :
    rowAffine X W b (ix2 p q) = (∑ c : Fin k, X (ix2 p c) * W (ix2 c q)) + b (ix2 0 q) := rfl

/-- If row (y 0) of X' is row (i 0) of X, and y and i have the same column, the layer of X' at y is the layer of X
    at i. -/
theorem rowAffine_entry (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (y : (⟨2, ![r', n]⟩ : Shape).Idx) (i : (⟨2, ![r, n]⟩ : Shape).Idx)
    (hX : ∀ c : Fin k, X' (ix2 (⟨(y 0).val, idx2_lt0 y⟩ : Fin r') c) = X (ix2 (⟨(i 0).val, idx2_lt0 i⟩ : Fin r) c))
    (hcol : (y 1).val = (i 1).val) :
    rowAffine X' W b y = rowAffine X W b i := by
  obtain ⟨p, q, rfl⟩ : ∃ (p : Fin r') (q : Fin n), y = ix2 p q := ⟨y 0, y 1, eq_ix2 y⟩
  obtain ⟨p', q', rfl⟩ : ∃ (p' : Fin r) (q' : Fin n), i = ix2 p' q' := ⟨i 0, i 1, eq_ix2 i⟩
  have hq : q = q' := Fin.ext hcol
  subst hq
  rw [rowAffine_apply, rowAffine_apply]
  refine congrArg (· + b (ix2 0 q)) (Finset.sum_congr rfl fun c _ => ?_)
  have h : X' (ix2 p c) = X (ix2 p' c) := hX c
  rw [h]

/-- The kernel body's spelling: the left operand narrowed, the right operand and the bias row re-shaped in place, the
    product accumulated into zeros, the row broadcast down the rows and added. -/
theorem body_rowAffine {φ ψ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x0 : FVec Ideal ⟨2, ![r, k]⟩ .f32) (x1 : FVec Ideal ⟨2, ![k, n]⟩ φ) (x2 : FVec Ideal ⟨2, ![1, n]⟩ .f32)
    (ht : ψ.bits < FTy.f32.bits) (h1 : (⟨2, ![k, n]⟩ : Shape).ShapeCasts ⟨2, ![k, n]⟩)
    (h2 : (⟨2, ![1, n]⟩ : Shape).ShapeCasts ⟨2, ![1, n]⟩) (hb : (⟨2, ![1, n]⟩ : Shape).Broadcasts ⟨2, ![r, n]⟩) :
    addf (matmul d prec (truncf ψ x0 ht) (shapeCast ⟨2, ![k, n]⟩ x1 h1) (constant ⟨2, ![r, n]⟩ .f32 0x00000000#32))
      (broadcastTo ⟨2, ![r, n]⟩ (shapeCast ⟨2, ![1, n]⟩ x2 h2) hb) = rowAffine x0 x1 x2 := by
  funext i
  obtain ⟨p, q, rfl⟩ : ∃ (p : Fin r) (q : Fin n), i = ix2 p q := ⟨i 0, i 1, eq_ix2 i⟩
  rw [addf_apply, shapeCast_self, shapeCast_self, Cert.Lib.BlockReads.broadcast_row_apply,
    Cert.Lib.BlockReads.matmul_zero_rows_apply d hlc hrc hln hrn hlb hrb prec _ _ p q]
  rfl

end Cert.Lib.RowAffine

end
-- ==== Proof.GatedLayer.lean ====
/-
  A gated grouped linear layer on the extended reals.

  The inputs are x (8192 rows of 256 features), a weight W of 50 groups, each 32 output rows over the 256 features, and
  a bias b with one row of 32 entries per group. A gate g (one value per group and feature) is computed from W alone:
  the per-feature sum of |W| over a group's 32 rows, divided by a temperature, passed through a softmax along the 256
  features and divided by the largest softmax value of the group (`gate`). The layer's entry (p, c, o) is

      ∑ k, (x(p, k) · g(c, k)) · W(c, o, k)  +  b(c, 0, o)                                  (`grouped`).

  The same numbers arranged as ONE dense layer: scale the weight first, Wf(k, 32·c + o) = W(c, o, k) · g(c, k), lay the
  bias out as one row bf(0, 32·c + o) = b(c, 0, o), and take x · Wf plus the row; entry (p, 32·c + o) of that is entry
  (p, c, o) of `grouped` (`flat_eq_grouped`). Term by term the two differ by x · (w · g) = (x · g) · w, which on the
  extended reals is commutativity and associativity of the product alone: nothing is distributed over a sum or
  cancelled, so no entry need be finite. The gate is never opened: both arrangements use the same function of W.
  The second half reads the re-arrangements (transpose, re-shapings, broadcasts) at an index. No program is mentioned.
-/
import Idealize.ShloMosaic.PureOps.Ideal
import Idealize.ShloMosaic.PureOps.Ideal.Laws
import Idealize.ShloMosaic.Lib.ValueIdx
import Idealize.ShloMosaic.Lib.Pipeline.Value
import proofs.«104529_j24635932410290_2_alg».proof.Proof.LibRowAffine

open scoped BigOperators

noncomputable section

namespace Cert.GatedLayer

open Idealize.ShloMosaic Idealize.ShloMosaic.ValueIdx Cert.Lib.MatProd Cert.Lib.RowAffine

/-! ## Shapes -/

abbrev SX : Shape := ⟨2, ![8192, 256]⟩
abbrev SW : Shape := ⟨3, ![50, 32, 256]⟩
abbrev SBias : Shape := ⟨3, ![50, 1, 32]⟩
abbrev SGate : Shape := ⟨2, ![50, 256]⟩
abbrev SGateSlab : Shape := ⟨3, ![50, 1, 256]⟩
abbrev SOut : Shape := ⟨3, ![8192, 50, 32]⟩
abbrev SWT : Shape := ⟨3, ![256, 50, 32]⟩
abbrev SFlatW : Shape := ⟨2, ![256, 1600]⟩
abbrev SFlatB : Shape := ⟨2, ![1, 1600]⟩
abbrev SFlat : Shape := ⟨2, ![8192, 1600]⟩
abbrev S0 : Shape := ⟨0, ![]⟩
abbrev SGroups : Shape := ⟨1, ![50]⟩
abbrev SGroupCol : Shape := ⟨2, ![50, 1]⟩

/-! ## The gate -/

theorem red_W : SW.ReducesTo [1] SGate := by decide
theorem pos0 : 0 < S0.numel := by decide
theorem bc0_gate : S0.BroadcastsInDim SGate (![] : Fin 0 → Fin SGate.rank) := by decide
theorem red_gate : SGate.ReducesTo [1] SGroups := by decide
theorem bc0_groups : S0.BroadcastsInDim SGroups (![] : Fin 0 → Fin SGroups.rank) := by decide
theorem bc_col : SGroups.BroadcastsInDim SGroupCol (![0] : Fin 1 → Fin SGroupCol.rank) := by decide
theorem bc_rows : SGroupCol.BroadcastsInDim SGate (![0, 1] : Fin 2 → Fin SGate.rank) := by decide

/-- Per group and feature: the sum over the group's 32 rows of |W|, divided by the temperature. -/
def scores (W : FVec Ideal SW .f32) : FVec Ideal SGate .f32 :=
  Host.divf (Host.reduceAdd (Host.absf W) (constant (F := Ideal) S0 .f32 0x00000000#32) red_W pos0)
    (broadcastInDim SGate ![] bc0_gate (constant (F := Ideal) S0 .f32 0x3F19999A#32))

/-- One value per group, repeated along the group's 256 features. -/
def alongFeatures (v : FVec Ideal SGroups .f32) : FVec Ideal SGate .f32 :=
  broadcastInDim SGate ![0, 1] bc_rows (broadcastInDim SGroupCol ![0] bc_col v)

/-- The exponential of the scores less their largest value in the group. -/
def expShifted (W : FVec Ideal SW .f32) : FVec Ideal SGate .f32 :=
  Host.exp (subf (scores W) (alongFeatures
    (maximumf (broadcastInDim SGroups ![] bc0_groups (constant (F := Ideal) S0 .f32 0xFF800000#32))
      (Host.reduce FloatOps.maximumf (scores W) (constant (F := Ideal) S0 .f32 0xFF800000#32) red_gate pos0))))

/-- The softmax of the scores along each group's features. -/
def softmaxScores (W : FVec Ideal SW .f32) : FVec Ideal SGate .f32 :=
  Host.divf (expShifted W)
    (alongFeatures (Host.reduceAdd (expShifted W) (constant (F := Ideal) S0 .f32 0x00000000#32) red_gate pos0))

/-- The gate: the softmax divided by its largest value in the group. -/
def gate (W : FVec Ideal SW .f32) : FVec Ideal SGate .f32 :=
  Host.divf (softmaxScores W)
    (alongFeatures (Host.reduce FloatOps.maximumf (softmaxScores W) (constant (F := Ideal) S0 .f32 0xFF800000#32) red_gate pos0))

/-! ## The layer, grouped and flat -/

/-- Entry (p, c, o) is ∑ k, (x(p, k) · g(c, k)) · W(c, o, k) + b(c, 0, o). -/
def grouped (x : SX.Idx → EReal) (W : SW.Idx → EReal) (g : SGate.Idx → EReal) (b : SBias.Idx → EReal) :
    SOut.Idx → EReal :=
  fun i => (∑ k : Fin 256, x (ix2 (i 0) k) * g (ix2 (i 1) k) * W (ix3 (i 1) (i 2) k)) + b (ix3 (i 1) (0 : Fin 1) (i 2))

theorem grouped_apply (x : SX.Idx → EReal) (W : SW.Idx → EReal) (g : SGate.Idx → EReal) (b : SBias.Idx → EReal)
    (p : Fin 8192) (c : Fin 50) (o : Fin 32) :
    grouped x W g b (ix3 p c o) = (∑ k : Fin 256, x (ix2 p k) * g (ix2 c k) * W (ix3 c o k)) + b (ix3 c 0 o) := rfl

/-- Output feature o of group c is column 32·c + o of the flat layer. -/
def flatCol (c : Fin 50) (o : Fin 32) : Fin 1600 :=
  ⟨c.val * 32 + o.val, by have := c.isLt; have := o.isLt; omega⟩

/-- Every column of the flat layer is some group's output feature. -/
theorem exists_flatCol (q : Fin 1600) : ∃ (c : Fin 50) (o : Fin 32), q = flatCol c o :=
  ⟨⟨q.val / 32, by have := q.isLt; omega⟩, ⟨q.val % 32, Nat.mod_lt _ (by decide)⟩,
    Fin.ext (by show q.val = q.val / 32 * 32 + q.val % 32; omega)⟩

/-- The flat layer over the scaled weight is the grouped layer: x · (w · g) = (x · g) · w, term by term. -/
theorem flat_eq_grouped (x : SX.Idx → EReal) (W : SW.Idx → EReal) (g : SGate.Idx → EReal) (b : SBias.Idx → EReal)
    (Wf : SFlatW.Idx → EReal) (bf : SFlatB.Idx → EReal)
    (hW : ∀ (k : Fin 256) (c : Fin 50) (o : Fin 32), Wf (ix2 k (flatCol c o)) = W (ix3 c o k) * g (ix2 c k))
    (hb : ∀ (c : Fin 50) (o : Fin 32), bf (ix2 0 (flatCol c o)) = b (ix3 c 0 o))
    (p : Fin 8192) (c : Fin 50) (o : Fin 32) :
    rowAffine x Wf bf (ix2 p (flatCol c o)) = grouped x W g b (ix3 p c o) := by
  rw [rowAffine_apply, grouped_apply, hb]
  refine congrArg (· + b (ix3 c 0 o)) (Finset.sum_congr rfl fun k _ => ?_)
  rw [hW, mul_comm (W _) (g _), ← mul_assoc]

/-! ## The re-arrangements read at an index -/

/-- The scaled weight, transposed to features-first and flattened over (group, output feature). -/
theorem flatWeight_apply (W : FVec Ideal SW .f32) (g : FVec Ideal SGate .f32)
    (h1 : SGate.BroadcastsInDim SGateSlab ![0, 2]) (h2 : SGateSlab.BroadcastsInDim SW ![0, 1, 2])
    (ht : SW.Transposes [2, 0, 1] SWT) (hc : SWT.ShapeCasts SFlatW) (k : Fin 256) (c : Fin 50) (o : Fin 32) :
    shapeCast SFlatW (transpose SWT [2, 0, 1]
        (mulf W (broadcastInDim SW ![0, 1, 2] h2 (broadcastInDim SGateSlab ![0, 2] h1 g))) ht) hc (ix2 k (flatCol c o))
      = W (ix3 c o k) * g (ix2 c k) := by
  rw [shapeCast_apply _ hc _ (ix3 k c o) (by
    rw [Shape.rowMajor_val_three, Shape.rowMajor_val_two]
    show (k.val * 50 + c.val) * 32 + o.val = k.val * 1600 + (c.val * 32 + o.val)
    omega)]
  rw [transpose_apply [2, 0, 1] _ ht (ix3 k c o) (ix3 c o k) (fun a => by
    match a with
    | ⟨0, _⟩ => rfl
    | ⟨1, _⟩ => rfl
    | ⟨2, _⟩ => rfl)]
  rw [mulf_apply]
  refine congrArg (W (ix3 c o k) * ·) ?_
  refine (broadcastInDim_apply _ h2 _ (ix3 c o k) (ix3 c (0 : Fin 1) k) (fun a => ?_)).trans
    (broadcastInDim_apply _ h1 g (ix3 c (0 : Fin 1) k) (ix2 c k) (fun a => ?_))
  · match a with
    | ⟨0, _⟩ => show c.val = if (50 : Nat) = 1 then 0 else c.val; rw [if_neg (by decide)]
    | ⟨1, _⟩ => show 0 = if (1 : Nat) = 1 then 0 else o.val; rw [if_pos rfl]
    | ⟨2, _⟩ => show k.val = if (256 : Nat) = 1 then 0 else k.val; rw [if_neg (by decide)]
  · match a with
    | ⟨0, _⟩ => show c.val = if (50 : Nat) = 1 then 0 else c.val; rw [if_neg (by decide)]
    | ⟨1, _⟩ => show k.val = if (256 : Nat) = 1 then 0 else k.val; rw [if_neg (by decide)]

/-- The bias laid out as one row over (group, output feature). -/
theorem flatBias_apply (b : SBias.Idx → EReal) (hc : SBias.ShapeCasts SFlatB) (c : Fin 50) (o : Fin 32) :
    shapeCast SFlatB b hc (ix2 0 (flatCol c o)) = b (ix3 c 0 o) :=
  shapeCast_apply b hc _ (ix3 c (0 : Fin 1) o) (by
    rw [Shape.rowMajor_val_three, Shape.rowMajor_val_two]
    show (c.val * 1 + 0) * 32 + o.val = 0 * 1600 + (c.val * 32 + o.val)
    omega)

/-- The flat result split back into (group, output feature). -/
theorem unflatten_apply (Y : SFlat.Idx → EReal) (hc : SFlat.ShapeCasts SOut) (p : Fin 8192) (c : Fin 50) (o : Fin 32) :
    shapeCast SOut Y hc (ix3 p c o) = Y (ix2 p (flatCol c o)) :=
  shapeCast_apply Y hc _ (ix2 p (flatCol c o)) (by
    rw [Shape.rowMajor_val_three, Shape.rowMajor_val_two]
    show p.val * 1600 + (c.val * 32 + o.val) = (p.val * 50 + c.val) * 32 + o.val
    omega)

end Cert.GatedLayer

end
-- ==== Proof.KernelHost.lean ====
/-
  The host lines around the kernel's one region, read as values on the extended reals.

  Before the region the program computes the gate of the weight, scales the weight by it, W(c, o, k) · g(c, k), moves
  the features to the front and flattens (group, output feature) into 1600 columns — the right operand of the region's
  product, narrowed to a shorter float format, which on the extended reals changes nothing — and lays the bias out as one
  row of 1600 entries. After the region it splits the 1600 columns of the region's result back into (group, output
  feature). Each is read here at an index: column 32·c + o is output feature o of group c.
-/
import proofs.«104529_j24635932410290_2_alg».proof.Proof.Gen.KernelIdeal.Frame
import proofs.«104529_j24635932410290_2_alg».proof.Proof.GatedLayer
import Idealize.ShloMosaic.Lib.StableHlo.Run

noncomputable section

namespace Cert.KernelIdeal.HostValue

open Idealize.ShloMosaic Idealize.ShloMosaic.TcCoe Idealize.SL.Sem Idealize.ShloMosaic.StableHlo
open Idealize.ShloMosaic.ValueIdx Cert.KernelIdeal Cert.KernelIdeal.Gen Cert.GatedLayer

variable (m : (ℓ : Loc nD τ sig) → Buf (Elt Ideal) ℓ)

/-- The three argument arrays as launched, as arrays of extended reals: x, the weight and the bias. -/
abbrev xArg (c : Dev nD) : S8192x256.Idx → EReal := m ((c : Thread nD τ).loc main_arg0)
abbrev wArg (c : Dev nD) : S50x32x256.Idx → EReal := m ((c : Thread nD τ).loc main_arg1)
abbrev bArg (c : Dev nD) : S50x1x32.Idx → EReal := m ((c : Thread nD τ).loc main_arg2)

/-- The bias row the region finds: the bias re-shaped to one row. -/
theorem biasRow_eq (c : Dev nD) :
    (V m c main_v24 : S1x1600.Idx → EReal)
      = shapeCast S1x1600 (m ((c : Thread nD τ).loc main_arg2)) shapeCasts_S50x1x32_S1x1600 := by
  show StableHlo.after hostOps0 (fun b => m (c, b)) (Proc.devRef .tc main_v24) = _
  after_results_simp
  rfl

/-- Its entry at column 32·g + o is the bias of output feature o of group g. -/
theorem biasRow_apply (c : Dev nD) (g : Fin 50) (o : Fin 32) :
    (V m c main_v24 : S1x1600.Idx → EReal) (ix2 0 (flatCol g o))
      = bArg m c (ix3 g 0 o) :=
  (congrFun (biasRow_eq m c) _).trans (flatBias_apply _ shapeCasts_S50x1x32_S1x1600 g o)

set_option maxHeartbeats 2000000 in
/-- The right operand the region finds: the weight scaled by its gate, features first, (group, output feature)
    flattened. -/
theorem flatWeight_eq (c : Dev nD) :
    (V m c main_v25 : S256x1600.Idx → EReal)
      = truncf .bf16 (shapeCast S256x1600 (transpose S256x50x32 [2, 0, 1]
          (mulf (m ((c : Thread nD τ).loc main_arg1))
            (broadcastInDim S50x32x256 ![0, 1, 2] bcast_S50x1x256_S50x32x256_0_1_2
              (broadcastInDim S50x1x256 ![0, 2] bcast_S50x256_S50x1x256_0_2 (gate (m ((c : Thread nD τ).loc main_arg1))))))
          transposes_S50x32x256_S256x50x32_2_0_1) shapeCasts_S256x50x32_S256x1600) bitsLt_bf16_f32 := by
  show StableHlo.after hostOps0 (fun b => m (c, b)) (Proc.devRef .tc main_v25) = _
  after_results_simp
  rfl

/-- Its entry at row k, column 32·g + o is W(g, o, k) · gate(g, k). -/
theorem flatWeight_entry (c : Dev nD) (k : Fin 256) (g : Fin 50) (o : Fin 32) :
    (V m c main_v25 : S256x1600.Idx → EReal) (ix2 k (flatCol g o))
      = wArg m c (ix3 g o k) * gate (wArg m c) (ix2 g k) :=
  (congrFun (flatWeight_eq m c) _).trans
    (flatWeight_apply _ _ bcast_S50x256_S50x1x256_0_2 bcast_S50x1x256_S50x32x256_0_1_2
      transposes_S50x32x256_S256x50x32_2_0_1 shapeCasts_S256x50x32_S256x1600 k g o)

/-- The program's result: the region's result array with its 1600 columns split into (group, output feature). -/
theorem result_eq (c : Dev nD) :
    (Pipeline.afterTail₀ cfgs (dats m) 0 (V0 m) [hostOps1] c main_v27 : S8192x50x32.Idx → EReal)
      = shapeCast S8192x50x32 ((dats m 0 c).arrAt 3 cfg0.N) shapeCasts_S8192x1600_S8192x50x32 := by
  unfold Pipeline.afterTail₀
  show StableHlo.after hostOps1 _ (Proc.devRef .tc main_v27) = _
  after_results_simp
  rw [Pipeline.withArrays_arr spec0 launch0.win.arr_inj c _ _ 3]
  rfl

end Cert.KernelIdeal.HostValue

end
-- ==== Proof.KernelValue.lean ====
/-
  The kernel's one region as a value, and with it the kernel program's result.

  The region runs over 8 grid points. Point t loads rows 1024·t … 1024·t + 1023 of x, the whole flattened weight and
  the whole bias row, and writes back the block of 1024 rows of x · Wf plus the bias row. A block of rows of a product
  is the same rows of the whole product, so what point t writes back is block t of ONE array, the flat layer of the
  arrays the region finds (`flatLayer`); the 8 blocks tile the 8192 rows, so the region's result array ends holding it
  (`final`). The line after the region splits the 1600 columns into (group, output feature), and the flat layer over the
  scaled weight is the grouped layer (`Cert.GatedLayer.flat_eq_grouped`): `result_value`, and `run` states the program's
  run with its result at that value and its arguments unchanged.
-/
import proofs.«104529_j24635932410290_2_alg».proof.Proof.Gen.KernelIdeal.Frame
import proofs.«104529_j24635932410290_2_alg».proof.Proof.KernelHost
import Idealize.ShloMosaic.Lib.Pipeline.Value

noncomputable section

open Idealize.ShloMosaic Idealize.ShloMosaic.TcCoe Idealize.SL.Sem
open Idealize.ShloMosaic.Pipeline (Dat)

namespace Cert.KernelIdeal.RegionValue

open Idealize.ShloMosaic.ValueIdx Cert.KernelIdeal Cert.KernelIdeal.Gen Cert.Lib.RowAffine Cert.GatedLayer
open Cert.KernelIdeal.HostValue

variable (m : (ℓ : Loc nD τ sig) → Buf (Elt Ideal) ℓ) (ρ : Dev nD → PrngReg)

theorem zero_offset : (![0, 0] : Fin 2 → Nat) = fun _ => 0 := funext fun a => by fin_cases a <;> rfl

/-- The body's stored value is the layer of its three loaded blocks: rows · weight + bias row. -/
theorem payload_eq (x0 : FVec Ideal S1024x256 .f32) (x1 : FVec Ideal S256x1600 .bf16) (x2 : FVec Ideal S1x1600 .f32) :
    k0_pay1 (F := Ideal) x0 x1 x2 = rowAffine x0 x1 x2 :=
  body_rowAffine dot_S1024x256_S256x1600_S1024x1600_1_0_0_1_n_n rfl rfl rfl rfl rfl rfl none x0 x1 x2
    bitsLt_bf16_f32 shapeCasts_S256x1600_S256x1600 shapeCasts_S1x1600_S1x1600 broadcasts_S1x1600_S1024x1600

/-- The block indices over the grid: the rows' block moves with the output's, the weight's and the bias row's stay at
    the origin, and the output's block index runs over 0 … 7 on the rows and is 0 on the columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

/-- Every block of 1024 rows is some point's. -/
theorem idx_onto : ∀ q : Fin 8, ∃ t : Fin cfg0.N, win0_3.index t = ![q.val, 0] :=
  (by decide +kernel : ∀ q : Fin 8, ∃ t : Fin grid0.N, win0_3.index t = ![q.val, 0])

/-- Point t's block of x: its row y is row 1024 · (the output's block index) + y of x. -/
theorem rows_block (c : Dev nD) (t : Fin cfg0.N) (y : S1024x256.Idx) (i : S8192x256.Idx)
    (h0 : (i 0).val = win0_3.index t (0 : Fin 2) * 1024 + (y 0).val) (h1 : (i 1).val = (y 1).val) :
    (iblk m c 0 t : S1024x256.Idx → EReal) y = (V m c main_arg0 : S8192x256.Idx → EReal) i := by
  obtain ⟨e0, e1, -⟩ := idx_facts t
  show V m c main_arg0 (((cfg0.win 0).blk t).view.emb y) = V m c main_arg0 i
  refine congrArg (V m c main_arg0) (funext fun a => Fin.ext ?_)
  match a with
  | ⟨0, _⟩ => show win0_0.index t (0 : Fin 2) * 1024 + 1 * (y 0).val = (i 0).val; rw [e0, h0]; omega
  | ⟨1, _⟩ => show win0_0.index t (1 : Fin 2) * 256 + 1 * (y 1).val = (i 1).val; rw [e1, h1]; omega

/-- Every point's block of the flattened weight is the whole of it. -/
theorem weight_block (c : Dev nD) (t : Fin cfg0.N) :
    (iblk m c 1 t : S256x1600.Idx → EReal) = (V m c main_v25 : S256x1600.Idx → EReal) := by
  obtain ⟨-, -, e0, e1, -⟩ := idx_facts t
  funext y
  show V m c main_v25 (((cfg0.win 1).blk t).view.emb y) = V m c main_v25 y
  refine congrArg (V m c main_v25) (funext fun a => Fin.ext ?_)
  match a with
  | ⟨0, _⟩ => show win0_1.index t (0 : Fin 2) * 256 + 1 * (y 0).val = (y 0).val; rw [e0]; omega
  | ⟨1, _⟩ => show win0_1.index t (1 : Fin 2) * 1600 + 1 * (y 1).val = (y 1).val; rw [e1]; omega

/-- Every point's block of the bias row is the whole row. -/
theorem bias_block (c : Dev nD) (t : Fin cfg0.N) :
    (iblk m c 2 t : S1x1600.Idx → EReal) = (V m c main_v24 : S1x1600.Idx → EReal) := by
  obtain ⟨-, -, -, -, e0, e1, -⟩ := idx_facts t
  funext y
  show V m c main_v24 (((cfg0.win 2).blk t).view.emb y) = V m c main_v24 y
  refine congrArg (V m c main_v24) (funext fun a => Fin.ext ?_)
  match a with
  | ⟨0, _⟩ => show win0_2.index t (0 : Fin 2) * 1 + 1 * (y 0).val = (y 0).val; rw [e0]; omega
  | ⟨1, _⟩ => show win0_2.index t (1 : Fin 2) * 1600 + 1 * (y 1).val = (y 1).val; rw [e1]; omega

/-- Where point t's output block sits in the result array: row 1024 · (block index) + y, the same column. -/
theorem out_emb (t : Fin cfg0.N) (y : S1024x1600.Idx) :
    ((((cfg0.win 3).blk t).view.emb y : S8192x1600.Idx) 0).val = win0_3.index t (0 : Fin 2) * 1024 + (y 0).val
    ∧ ((((cfg0.win 3).blk t).view.emb y : S8192x1600.Idx) 1).val = (y 1).val := by
  obtain ⟨-, -, -, -, -, -, -, e1⟩ := idx_facts t
  constructor
  · show win0_3.index t (0 : Fin 2) * 1024 + 1 * (y 0).val = _; omega
  · show win0_3.index t (1 : Fin 2) * 1600 + 1 * (y 1).val = _; rw [e1]; omega

/-- The flat layer of the arrays the region finds: x · Wf plus the bias row. -/
def flatLayer (c : Dev nD) : S8192x1600.Idx → EReal :=
  rowAffine (r := 8192) (k := 256) (n := 1600) (V m c main_arg0) (V m c main_v25) (V m c main_v24)

/-- What point t writes back is block t of the flat layer. -/
theorem flushed_eq (c : Dev nD) (t : Fin cfg0.N) :
    (dats m 0 c).flushed 3 t = ((cfg0.win 3).blk t).view.read (Elt Ideal) (flatLayer m c) := by
  show (cfg0.win 3).cut (grid0.coords t) ((dats m 0 c).after 3 t) = _
  rw [after0_3]
  unfold out0_3
  rw [View.canon_unit_zero zero_offset]
  simp only [View.ld_unit_zero (S := S1024x256) zero_offset, View.ld_unit_zero (S := S256x1600) zero_offset,
    View.ld_unit_zero (S := S1x1600) zero_offset]
  rw [payload_eq, weight_block, bias_block]
  funext y
  obtain ⟨h0, h1⟩ := out_emb t y
  exact rowAffine_entry (r := 8192) (r' := 1024) (k := 256) (n := 1600) (V m c main_arg0) (iblk m c 0 t)
    (V m c main_v25) (V m c main_v24) y (((cfg0.win 3).blk t).view.emb y)
    (fun k => rows_block m c t _ _ h0 rfl) h1.symm

/-- An index of the result array is in point t's block iff each coordinate is in the block's range. -/
theorem mem_blk (t : Fin cfg0.N) (i : S8192x1600.Idx) :
    i ∈ ((cfg0.win 3).blk t).view.set ↔ ∀ a : Fin 2, win0_3.index t a * S1024x1600.size a ≤ (i a).val
      ∧ (i a).val < win0_3.index t a * S1024x1600.size a + S1024x1600.size a := by
  show i ∈ ((View.whole main_v26).slice (win0_3.rect t)).set ↔ _
  rw [View.set_slice_whole, Rect.mem_set_unit]
  exact Iff.rfl

/-- The 8 blocks tile the rows: row r is in the block of the point whose block index is r / 1024. -/
theorem cover (i : S8192x1600.Idx) :
    ∃ t : Fin cfg0.N, (cfg0.win 3).flush t = true ∧ i ∈ ((cfg0.win 3).blk t).view.set := by
  have hi0 : (i 0).val < 8192 := (i 0).isLt
  have hi1 : (i 1).val < 1600 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1600 ≤ (i 1).val ∧ (i 1).val < win0_3.index t (1 : Fin 2) * 1600 + 1600
    omega

/-- The region's result array after the run is the flat layer. -/
theorem final (c : Dev nD) : (dats m 0 c).arrAt 3 cfg0.N = flatLayer m c :=
  (dats m 0 c).arrAt_eq_of_cover 3 (flatLayer m c) (fun t _ => flushed_eq m c t) cover

/-- The program's result is the grouped layer of its arguments, with the gate of the weight. -/
theorem result_value (c : Dev nD) :
    (Pipeline.afterTail₀ cfgs (dats m) 0 (V0 m) [hostOps1] c main_v27 : S8192x50x32.Idx → EReal)
      = grouped (xArg m c) (wArg m c) (gate (wArg m c)) (bArg m c) := by
  rw [result_eq, final]
  funext i
  obtain ⟨p, g, o, rfl⟩ : ∃ (p : Fin 8192) (g : Fin 50) (o : Fin 32), i = ix3 p g o := ⟨i 0, i 1, i 2, eq_ix3 i⟩
  rw [unflatten_apply]
  unfold flatLayer
  rw [V_main_arg0]
  exact flat_eq_grouped _ _ _ _ _ _ (fun k g o => flatWeight_entry m c k g o) (fun g o => biasRow_apply m c g o) p g o

/-- The program's run: it terminates with its result at the grouped layer and its arguments unchanged. -/
theorem run : θ_run defs (onTc (τ := τ) (main (F := Ideal))) ⟨m, fun _ => 0, ρ⟩ fun r => ∀ c : Dev nD,
      r.2.mem ((c : Thread nD τ).loc main_v27)
        = grouped (xArg m c) (wArg m c) (gate (wArg m c)) (bArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v27 (Pipeline.mem_restRefs_of main_v27 (by decide) (by decide))).trans (result_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RegionValue

end
-- ==== Proof.RefValue.lean ====
/-
  The reference computes the grouped layer: it scales x by the gate per group, x(p, k) · g(c, k), contracts that with
  W(c, o, k) over the 256 features (a batched product, the group the batch axis), adds the bias row of the group and
  moves the rows to the front. Read index by index through the generated stage lemmas, entry (p, c, o) of its result is
  ∑ k, (x(p, k) · g(c, k)) · W(c, o, k) + b(c, 0, o), with g the gate of W: the composed index maps of the broadcasts,
  of the product and of the transpose send (p, c, o) and k to exactly those entries.
-/
import proofs.«104529_j24635932410290_2_alg».proof.Proof.Gen.ReferenceIdeal.Read
import proofs.«104529_j24635932410290_2_alg».proof.Proof.GatedLayer

open scoped BigOperators

noncomputable section

namespace Cert.ReferenceIdeal.RefValue

open Cert.ReferenceIdeal Cert.ReferenceIdeal.Read Idealize.ShloMosaic Idealize.ShloMosaic.ValueIdx Cert.GatedLayer

/-- The reference's gate stage is the gate: the same operations of W, in the same order. -/
theorem gate_eq (W : FVec Ideal S50x32x256 .f32) : val_main_v18 (F := Ideal) W = gate W := rfl

/-- The reference's result is the grouped layer with the gate of W. -/
theorem result_eq (x : FVec Ideal S8192x256 .f32) (W : FVec Ideal S50x32x256 .f32) (b : FVec Ideal S50x1x32 .f32) :
    val_main_v27 (F := Ideal) x W b = grouped x W (gate W) b := by
  funext i
  obtain ⟨p, c, o, rfl⟩ : ∃ (p : Fin 8192) (c : Fin 50) (o : Fin 32), i = ix3 p c o := ⟨i 0, i 1, i 2, eq_ix3 i⟩
  rw [val_main_v27_apply, val_main_v26_apply, val_main_v24_apply, val_main_v25_apply, grouped_apply, Ideal.addf_def]
  refine congrArg₂ (· + ·) (Finset.sum_congr rfl fun k _ => ?_) (congrArg b ?_)
  · rw [val_main_v23_apply, val_main_v21_apply, val_main_v19_apply, val_main_v22_apply, val_main_v20_apply, gate_eq,
      Ideal.mulf_def]
    refine congrArg₂ (· * ·) (congrArg₂ (· * ·) (congrArg x ?_) (congrArg (gate W) ?_)) (congrArg W ?_)
    · funext a; apply Fin.ext
      match a with
      | ⟨0, _⟩ => rfl
      | ⟨1, _⟩ => rfl
    · funext a; apply Fin.ext
      match a with
      | ⟨0, _⟩ => rfl
      | ⟨1, _⟩ => rfl
    · funext a; apply Fin.ext
      match a with
      | ⟨0, _⟩ => rfl
      | ⟨1, _⟩ => rfl
      | ⟨2, _⟩ => rfl
  · funext a; apply Fin.ext
    match a with
    | ⟨0, _⟩ => rfl
    | ⟨1, _⟩ => rfl
    | ⟨2, _⟩ => rfl

end Cert.ReferenceIdeal.RefValue

end
-- ==== Proof.lean ====
/-
  The kernel computes a gated grouped linear layer as ONE dense product: before its region it scales the weight by the
  gate, W(c, o, k) · g(c, k), and flattens (group, output feature) into 1600 columns; the region multiplies the 8192
  rows of x by that 256 × 1600 array, 1024 rows per grid point, and adds the flattened bias row; the last line splits
  the columns back into (group, output feature). The reference scales x by the gate per group instead and contracts
  with the unscaled weight. Entry (p, c, o) is ∑ k, x(p, k) · (W(c, o, k) · g(c, k)) + b(c, 0, o) on one side and
  ∑ k, (x(p, k) · g(c, k)) · W(c, o, k) + b(c, 0, o) on the other: equal term by term by commutativity and associativity
  of the product of extended reals, with the same gate g of the weight on both sides (Proof/GatedLayer.lean). No
  finiteness is used: nothing is distributed over a sum or cancelled.

  The pieces: Proof/KernelHost.lean and Proof/KernelValue.lean read the kernel program's run as that value,
  Proof/RefValue.lean the reference's; here are the five claims.
-/
import proofs.«104529_j24635932410290_2_alg».proof.Defs
import proofs.«104529_j24635932410290_2_alg».proof.Proof.Gen.Kernel
import proofs.«104529_j24635932410290_2_alg».proof.Proof.Gen.Kernel.Skeleton
import proofs.«104529_j24635932410290_2_alg».proof.Proof.Gen.Kernel.Launch
import proofs.«104529_j24635932410290_2_alg».proof.Proof.Gen.Kernel.Points
import proofs.«104529_j24635932410290_2_alg».proof.Proof.Gen.Kernel.Frame
import proofs.«104529_j24635932410290_2_alg».proof.Proof.Gen.KernelIdeal
import proofs.«104529_j24635932410290_2_alg».proof.Proof.Gen.KernelIdeal.Skeleton
import proofs.«104529_j24635932410290_2_alg».proof.Proof.Gen.KernelIdeal.Launch
import proofs.«104529_j24635932410290_2_alg».proof.Proof.Gen.KernelIdeal.Points
import proofs.«104529_j24635932410290_2_alg».proof.Proof.Gen.KernelIdeal.Frame
import proofs.«104529_j24635932410290_2_alg».proof.Proof.Gen.ReferenceIdeal
import proofs.«104529_j24635932410290_2_alg».proof.Proof.Gen.ReferenceIdeal.Run
import proofs.«104529_j24635932410290_2_alg».proof.Proof.Gen.ReferenceIdeal.Read
import proofs.«104529_j24635932410290_2_alg».proof.Proof.Gen.Pre_finite_inputs
import proofs.«104529_j24635932410290_2_alg».proof.Proof.KernelValue
import proofs.«104529_j24635932410290_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- Both programs end with their result at the grouped layer of the arguments: the kernel's by the flat product over
    the scaled weight, the reference's by scaling x per group. -/
theorem algebraic : Cert.algebraic_KernelIdeal_ReferenceIdeal := by
  intro m ρ m' ρ' _ hagree
  refine ⟨fun c => Cert.GatedLayer.grouped (Cert.KernelIdeal.HostValue.xArg m c) (Cert.KernelIdeal.HostValue.wArg m c)
      (Cert.GatedLayer.gate (Cert.KernelIdeal.HostValue.wArg m c)) (Cert.KernelIdeal.HostValue.bArg m c),
    Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
